-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x64 : Shape := ⟨3, ![4, 1024, 64]⟩
abbrev S4x1024x1024 : Shape := ⟨3, ![4, 1024, 1024]⟩
abbrev S64x64 : Shape := ⟨2, ![64, 64]⟩
abbrev S64x1 : Shape := ⟨2, ![64, 1]⟩
abbrev S_ : Shape := ⟨0, ![]⟩

class Facts : Prop where
  bcast_S_S4x1024x64 : S_.BroadcastsInDim S4x1024x64 (![] : Fin 0 → Fin S4x1024x64.rank)
  reducesTo_S4x1024x64_S_d0_1_2 : S4x1024x64.ReducesTo [0, 1, 2] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_arg4 : FVec F S64x64 .f32) (main_arg5 : FVec F S64x1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  main_v28

def fn {F : FTy → Type} [FloatOps F] (main_arg0 : FVec F S4x1024x64 .f32) (main_arg1 : FVec F S4x1024x1024 .f32) (main_arg2 : FVec F S64x64 .f32) (main_arg3 : FVec F S64x64 .f32) (main_arg4 : FVec F S64x64 .f32) (main_arg5 : FVec F S64x1 .f32) : IVec S_ 1 :=
  let main_v0 : FVec F S4x1024x64 .f32 := Host.absf main_arg0
  let main_cst : FVec F S_ .f32 := constant S_ .f32 0x7F800000#32
  let main_v1 : FVec F S4x1024x64 .f32 := broadcastInDim S4x1024x64 ![] bcast_S_S4x1024x64 main_cst
  let main_v2 : IVec S4x1024x64 1 := cmpf .olt main_v0 main_v1
  let main_c : IVec S_ 1 := constantI S_ 1 1#1
  let main_v3 : IVec S_ 1 := (fun x v => Host.reduce IntOp.andi x v reducesTo_S4x1024x64_S_d0_1_2 h_S_) main_v2 main_c
  let main_v4 : FVec F S4x1024x1024 .f32 := Host.absf main_arg1
  let main_cst_0 : FVec F S_ .f32 := constant S_ .f32 0x7F800000#32
  let main_v5 : FVec F S4x1024x1024 .f32 := broadcastInDim S4x1024x1024 ![] bcast_S_S4x1024x1024 main_cst_0
  let main_v6 : IVec S4x1024x1024 1 := cmpf .olt main_v4 main_v5
  let main_c_1 : IVec S_ 1 := constantI S_ 1 1#1
  let main_v7 : IVec S_ 1 := (fun x v => Host.reduce IntOp.andi x v reducesTo_S4x1024x1024_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_v13 main_v16
-- ==== Kernel.lean ====
abbrev S4x1024x64 : Shape := ⟨3, ![4, 1024, 64]⟩
abbrev S4x1024x1024 : Shape := ⟨3, ![4, 1024, 1024]⟩
abbrev S64x64 : Shape := ⟨2, ![64, 64]⟩
abbrev S64x1 : Shape := ⟨2, ![64, 1]⟩
abbrev S64 : Shape := ⟨1, ![64]⟩
abbrev S1x64 : Shape := ⟨2, ![1, 64]⟩
abbrev S4x1x64 : Shape := ⟨3, ![4, 1, 64]⟩
abbrev S1x1024x64 : Shape := ⟨3, ![1, 1024, 64]⟩
abbrev S1x1x64 : Shape := ⟨3, ![1, 1, 64]⟩
abbrev S1024x64 : Shape := ⟨2, ![1024, 64]⟩
abbrev S4x1024x1024x64 : Shape := ⟨4, ![4, 1024, 1024, 64]⟩
abbrev S1x256x64 : Shape := ⟨3, ![1, 256, 64]⟩
abbrev S1x128x64 : Shape := ⟨3, ![1, 128, 64]⟩
abbrev S1x256x128x64 : Shape := ⟨4, ![1, 256, 128, 64]⟩
abbrev S256x64 : Shape := ⟨2, ![256, 64]⟩
abbrev S128x64 : Shape := ⟨2, ![128, 64]⟩
abbrev S256x1x64 : Shape := ⟨3, ![256, 1, 64]⟩
abbrev S256x128x64 : Shape := ⟨3, ![256, 128, 64]⟩

abbrev nBuf : Space → Nat
  | .hbm => 12
  | .vmem => 20
  | .smem => 0
  | _ => 0

abbrev bufTy : (tb : Table) → Fin (tcTables nBuf tb) → BufTy
  | .hbm, ⟨0, _⟩ => ⟨S4x1024x64, .f32⟩
  | .hbm, ⟨1, _⟩ => ⟨S4x1024x1024, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x1, .f32⟩
  | .hbm, ⟨6, _⟩ => ⟨S64, .f32⟩
  | .hbm, ⟨7, _⟩ => ⟨S1x64, .f32⟩
  | .hbm, ⟨8, _⟩ => ⟨S4x1024x64, .f32⟩
  | .hbm, ⟨9, _⟩ => ⟨S4x1024x64, .f32⟩
  | .hbm, ⟨10, _⟩ => ⟨S4x1x64, .f32⟩
  | .hbm, ⟨11, _⟩ => ⟨S4x1024x1024x64, .f32⟩
  | .local _ .vmem, ⟨0, _⟩ => ⟨S1x1024x64, .f32⟩
  | .local _ .vmem, ⟨1, _⟩ => ⟨S1x1024x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S1x64, .f32⟩
  | .local _ .vmem, ⟨6, _⟩ => ⟨S1x1024x64, .f32⟩
  | .local _ .vmem, ⟨7, _⟩ => ⟨S1x1024x64, .f32⟩
  | .local _ .vmem, ⟨8, _⟩ => ⟨S1x1024x64, .f32⟩
  | .local _ .vmem, ⟨9, _⟩ => ⟨S1x1024x64, .f32⟩
  | .local _ .vmem, ⟨10, _⟩ => ⟨S1x1x64, .f32⟩
  | .local _ .vmem, ⟨11, _⟩ => ⟨S1x1x64, .f32⟩
  | .local _ .vmem, ⟨12, _⟩ => ⟨S1x256x64, .f32⟩
  | .local _ .vmem, ⟨13, _⟩ => ⟨S1x256x64, .f32⟩
  | .local _ .vmem, ⟨14, _⟩ => ⟨S1x128x64, .f32⟩
  | .local _ .vmem, ⟨15, _⟩ => ⟨S1x128x64, .f32⟩
  | .local _ .vmem, ⟨16, _⟩ => ⟨S1x1x64, .f32⟩
  | .local _ .vmem, ⟨17, _⟩ => ⟨S1x1x64, .f32⟩
  | .local _ .vmem, ⟨18, _⟩ => ⟨S1x256x128x64, .f32⟩
  | .local _ .vmem, ⟨19, _⟩ => ⟨S1x256x128x64, .f32⟩
  | _, _ => ⟨S4x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨3, ![4, 4, 8], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x256x128x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

class Facts₀ : Prop where
  shapeCasts_S64x1_S64 : S64x1.ShapeCasts S64
  shapeCasts_S64_S1x64 : S64.ShapeCasts S1x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S1024x64_S1x1024x64 : S1024x64.ShapeCasts S1x1024x64
  reduces_S1024x64_S64 : S1024x64.Reduces [0] S64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S256x64_S256x1x64 : S256x64.ShapeCasts S256x1x64
  shapeCasts_S128x64_S1x128x64 : S128x64.ShapeCasts S1x128x64
  broadcasts_S256x1x64_S256x128x64 : S256x1x64.Broadcasts S256x128x64
  broadcasts_S1x128x64_S256x128x64 : S1x128x64.Broadcasts S256x128x64
  broadcasts_S1x1x64_S256x128x64 : S1x1x64.Broadcasts S256x128x64
  inb_S1x256x128x64_S1x256x128x64_0_0_0_0 : ∀ a, (![0, 0, 0, 0] : Fin 4 → Nat) a + S1x256x128x64.size a ≤ S1x256x128x64.size a
  h_S1x256x128x64 : 0 < S1x256x128x64.numel
  shapeCasts_S1x256x128x64_S256x128x64 : S1x256x128x64.ShapeCasts S256x128x64
  shapeCasts_S256x128x64_S1x256x128x64 : S256x128x64.ShapeCasts S1x256x128x64
  dot_S1024x64_S64x64_S1024x64_1_1_0_0_n_n_wf : DotDims.WF S1024x64 S64x64 S1024x64 [1] [1] [0] [0] [] []
  dot_S1x64_S64x64_S1x64_1_1_0_0_n_n_wf : DotDims.WF S1x64 S64x64 S1x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S4x1024x64.size a
  hwx0_0 : ∀ i : grid0.Coords, EltTy.bits .f32 = 32 ∨ (Rect.block (s := S4x1024x64) S1x1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x64.size a ≤ S4x1024x64.size a
  hwx0_5 : ∀ i : grid0.Coords, EltTy.bits .f32 = 32 ∨ (Rect.block (s := S4x1024x64) S1x1024x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x64.size a ≤ S4x1024x64.size a
  hwx0_6 : ∀ i : grid0.Coords, EltTy.bits .f32 = 32 ∨ (Rect.block (s := S4x1024x64) S1x1024x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x64.size a ≤ S4x1x64.size a
  hwx0_7 : ∀ i : grid0.Coords, EltTy.bits .f32 = 32 ∨ (Rect.block (s := S4x1x64) S1x1x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x64.size a ≤ S4x1024x64.size a
  hwx1_0 : ∀ i : grid1.Coords, EltTy.bits .f32 = 32 ∨ (Rect.block (s := S4x1024x64) S1x256x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x64.size a ≤ S4x1024x64.size a
  hwx1_1 : ∀ i : grid1.Coords, EltTy.bits .f32 = 32 ∨ (Rect.block (s := S4x1024x64) S1x128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x64.size a ≤ S4x1x64.size a
  hwx1_2 : ∀ i : grid1.Coords, EltTy.bits .f32 = 32 ∨ (Rect.block (s := S4x1x64) S1x1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x128x64.size a ≤ S4x1024x1024x64.size a
  hwx1_3 : ∀ i : grid1.Coords, EltTy.bits .f32 = 32 ∨ (Rect.block (s := S4x1024x1024x64) S1x256x128x64.size (cc1_transform_3 i) (hinb1_3 i)).WholeWords (EltTy.packing .f32)

variable [Facts₀]

def dot_S1024x64_S64x64_S1024x64_1_1_0_0_n_n : DotDims S1024x64 S64x64 S1024x64 where
  lhsContracting := [1]
  rhsContracting := [1]
  lhsNonContracting := [0]
  rhsNonContracting := [0]
  lhsBatch := []
  rhsBatch := []
  wf := dot_S1024x64_S64x64_S1024x64_1_1_0_0_n_n_wf
def dot_S1x64_S64x64_S1x64_1_1_0_0_n_n : DotDims S1x64 S64x64 S1x64 where
  lhsContracting := [1]
  rhsContracting := [1]
  lhsNonContracting := [0]
  rhsNonContracting := [0]
  lhsBatch := []
  rhsBatch := []
  wf := dot_S1x64_S64x64_S1x64_1_1_0_0_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S1x1024x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S1x1024x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_2) S1x1x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v2_1) S1x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S1x128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S1x1x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x256x128x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x1024x64 : Shape := ⟨3, ![4, 1024, 64]⟩
abbrev S4x1024x1024 : Shape := ⟨3, ![4, 1024, 1024]⟩
abbrev S64x64 : Shape := ⟨2, ![64, 64]⟩
abbrev S64x1 : Shape := ⟨2, ![64, 1]⟩
abbrev S_ : Shape := ⟨0, ![]⟩
abbrev S4x64 : Shape := ⟨2, ![4, 64]⟩
abbrev S4x1x1024x64 : Shape := ⟨4, ![4, 1, 1024, 64]⟩
abbrev S4x1024x1x64 : Shape := ⟨4, ![4, 1024, 1, 64]⟩
abbrev S4x1024x1024x64 : Shape := ⟨4, ![4, 1024, 1024, 64]⟩
abbrev S4x1x1x64 : Shape := ⟨4, ![4, 1, 1, 64]⟩
abbrev S64 : Shape := ⟨1, ![64]⟩
abbrev S1x1x1x64 : Shape := ⟨4, ![1, 1, 1, 64]⟩

abbrev nBuf : Space → Nat
  | .hbm => 23
  | .vmem => 0
  | .smem => 0
  | _ => 0

abbrev bufTy : (tb : Table) → Fin (tcTables nBuf tb) → BufTy
  | .hbm, ⟨0, _⟩ => ⟨S4x1024x64, .f32⟩
  | .hbm, ⟨1, _⟩ => ⟨S4x1024x1024, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x1, .f32⟩
  | .hbm, ⟨6, _⟩ => ⟨S4x1024x64, .f32⟩
  | .hbm, ⟨7, _⟩ => ⟨S4x1024x64, .f32⟩
  | .hbm, ⟨8, _⟩ => ⟨S_, .f32⟩
  | .hbm, ⟨9, _⟩ => ⟨S4x64, .f32⟩
  | .hbm, ⟨10, _⟩ => ⟨S4x64, .f32⟩
  | .hbm, ⟨11, _⟩ => ⟨S4x1x1024x64, .f32⟩
  | .hbm, ⟨12, _⟩ => ⟨S4x1024x1x64, .f32⟩
  | .hbm, ⟨13, _⟩ => ⟨S4x1024x1024x64, .f32⟩
  | .hbm, ⟨14, _⟩ => ⟨S4x1024x1024x64, .f32⟩
  | .hbm, ⟨15, _⟩ => ⟨S4x1024x1024x64, .f32⟩
  | .hbm, ⟨16, _⟩ => ⟨S4x1x1x64, .f32⟩
  | .hbm, ⟨17, _⟩ => ⟨S4x1024x1024x64, .f32⟩
  | .hbm, ⟨18, _⟩ => ⟨S4x1024x1024x64, .f32⟩
  | .hbm, ⟨19, _⟩ => ⟨S64, .f32⟩
  | .hbm, ⟨20, _⟩ => ⟨S1x1x1x64, .f32⟩
  | .hbm, ⟨21, _⟩ => ⟨S4x1024x1024x64, .f32⟩
  | .hbm, ⟨22, _⟩ => ⟨S4x1024x1024x64, .f32⟩
  | _, _ => ⟨S4x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S4x1024x64_S4x64_d1 : S4x1024x64.ReducesTo [1] S4x64
  h_S_ : 0 < S_.numel
  bcast_S4x1024x64_S4x1x1024x64_0_2_3 : S4x1024x64.BroadcastsInDim S4x1x1024x64 (![0, 2, 3] : Fin 3 → Fin S4x1x1024x64.rank)
  bcast_S4x1024x64_S4x1024x1x64_0_1_3 : S4x1024x64.BroadcastsInDim S4x1024x1x64 (![0, 1, 3] : Fin 3 → Fin S4x1024x1x64.rank)
  bcast_S4x1x1024x64_S4x1024x1024x64_0_1_2_3 : S4x1x1024x64.BroadcastsInDim S4x1024x1024x64 (![0, 1, 2, 3] : Fin 4 → Fin S4x1024x1024x64.rank)
  bcast_S4x1024x1x64_S4x1024x1024x64_0_1_2_3 : S4x1024x1x64.BroadcastsInDim S4x1024x1024x64 (![0, 1, 2, 3] : Fin 4 → Fin S4x1024x1024x64.rank)
  bcast_S4x64_S4x1x1x64_0_3 : S4x64.BroadcastsInDim S4x1x1x64 (![0, 3] : Fin 2 → Fin S4x1x1x64.rank)
  bcast_S4x1x1x64_S4x1024x1024x64_0_1_2_3 : S4x1x1x64.BroadcastsInDim S4x1024x1024x64 (![0, 1, 2, 3] : Fin 4 → Fin S4x1024x1024x64.rank)
  shapeCasts_S64x1_S64 : S64x1.ShapeCasts S64
  bcast_S64_S1x1x1x64_3 : S64.BroadcastsInDim S1x1x1x64 (![3] : Fin 1 → Fin S1x1x1x64.rank)
  bcast_S1x1x1x64_S4x1024x1024x64_0_1_2_3 : S1x1x1x64.BroadcastsInDim S4x1024x1024x64 (![0, 1, 2, 3] : Fin 4 → Fin S4x1024x1024x64.rank)
  dot_S4x1024x64_S64x64_S4x1024x64_2_1_01_0_n_n_wf : DotDims.WF S4x1024x64 S64x64 S4x1024x64 [2] [1] [0, 1] [0] [] []
  dot_S4x64_S64x64_S4x64_1_1_0_0_n_n_wf : DotDims.WF S4x64 S64x64 S4x64 [1] [1] [0] [0] [] []

variable [Facts₀]

def dot_S4x1024x64_S64x64_S4x1024x64_2_1_01_0_n_n : DotDims S4x1024x64 S64x64 S4x1024x64 where
  lhsContracting := [2]
  rhsContracting := [1]
  lhsNonContracting := [0, 1]
  rhsNonContracting := [0]
  lhsBatch := []
  rhsBatch := []
  wf := dot_S4x1024x64_S64x64_S4x1024x64_2_1_01_0_n_n_wf
def dot_S4x64_S64x64_S4x64_1_1_0_0_n_n : DotDims S4x64 S64x64 S4x64 where
  lhsContracting := [1]
  rhsContracting := [1]
  lhsNonContracting := [0]
  rhsNonContracting := [0]
  lhsBatch := []
  rhsBatch := []
  wf := dot_S4x64_S64x64_S4x64_1_1_0_0_n_n_wf

class Facts : Prop extends Facts₀ where

variable [Facts]
-- ==== Proof.KernelRun.lean ====
/-
  The idealized kernel's run with its result array NAMED.

  The program is two pipelined regions after two host reshapes. Its buffer contents at the segment boundaries are a fold
  from the launch memory: `W1` after the reshapes, `W2` after the projection region (its three output arrays at what
  the region's write-backs leave, everything else as before), `W3` after the broadcast region. The run below is the
  segment-by-segment run of the program read against the final state, once more, keeping one more buffer in the
  post: the result array `main_v3` ends at `W3`'s contents there, and the six argument arrays end as launched.
-/
import proofs.«115965_j41583873360239_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array then holds the last
    boundary's contents `W3` at `main_v3`, and every argument array what it held at launch. -/
theorem run_named : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.RunValue

end
-- ==== Proof.ProjPayload.lean ====
/-
  The projection kernel's three stored values, read at an index, at the extended reals.

  The body loads a batch's node features `v0` [1, 1024, 64] and a weight matrix [64, 64], contracts the channel axis
  of both (a matrix product into a zero accumulator, the changes of float format the identity), and stores the
  product as a [1, 1024, 64] block: at (·, n, o) the sum over channels `k` of `v0[0, n, k] · w[o, k]`. The third
  stored value first sums the features over the nodes (a reduction along axis 0 from the zero word), projects that
  one row the same way, and adds the bias row.
-/
import proofs.«115965_j41583873360239_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.ProjPayload

open Cert.KernelIdeal Cert.KernelIdeal.Gen Idealize.ShloMosaic Idealize.ShloMosaic.ValueIdx

/-! ## The operand indices of the two matrix products: rows of the left operand, rows of the weight matrix -/

theorem big_lhs0 (i : S1024x64.Idx) (q : dot_S1024x64_S64x64_S1024x64_1_1_0_0_n_n.contr.Idx) :
    (dot_S1024x64_S64x64_S1024x64_1_1_0_0_n_n.lhsIdx i q 0).val = (i 0).val := by
  unfold DotDims.lhsIdx
  rw [dif_neg (show ¬(0 : Fin S1024x64.rank) ∈ dot_S1024x64_S64x64_S1024x64_1_1_0_0_n_n.lhsBatch by decide), dif_pos (show (0 : Fin S1024x64.rank) ∈ dot_S1024x64_S64x64_S1024x64_1_1_0_0_n_n.lhsNonContracting by decide)]
  rfl
theorem big_lhs1 (i : S1024x64.Idx) (q : dot_S1024x64_S64x64_S1024x64_1_1_0_0_n_n.contr.Idx) :
    (dot_S1024x64_S64x64_S1024x64_1_1_0_0_n_n.lhsIdx i q 1).val = (q ⟨0, by decide⟩).val :=
  dot_S1024x64_S64x64_S1024x64_1_1_0_0_n_n.lhsIdx_val_of_single rfl i q
theorem big_rhs0 (i : S1024x64.Idx) (q : dot_S1024x64_S64x64_S1024x64_1_1_0_0_n_n.contr.Idx) :
    (dot_S1024x64_S64x64_S1024x64_1_1_0_0_n_n.rhsIdx i q 0).val = (i 1).val := by
  unfold DotDims.rhsIdx
  rw [dif_neg (show ¬(0 : Fin S64x64.rank) ∈ dot_S1024x64_S64x64_S1024x64_1_1_0_0_n_n.rhsBatch by decide), dif_pos (show (0 : Fin S64x64.rank) ∈ dot_S1024x64_S64x64_S1024x64_1_1_0_0_n_n.rhsNonContracting by decide)]
  rfl
theorem big_rhs1 (i : S1024x64.Idx) (q : dot_S1024x64_S64x64_S1024x64_1_1_0_0_n_n.contr.Idx) :
    (dot_S1024x64_S64x64_S1024x64_1_1_0_0_n_n.rhsIdx i q 1).val = (q ⟨0, by decide⟩).val :=
  dot_S1024x64_S64x64_S1024x64_1_1_0_0_n_n.rhsIdx_val_of_single rfl i q

/-- A [1024, 64] by [64, 64] product contracting both channel axes, into the zero accumulator, at (n, o). -/
theorem big_matmul_apply (l : FVec Ideal S1024x64 .bf16) (r : FVec Ideal S64x64 .bf16) (n : Fin 1024) (o : Fin 64) :
    matmul (F := Ideal) dot_S1024x64_S64x64_S1024x64_1_1_0_0_n_n none l r (constant S1024x64 .f32 0x00000000#32) (ix2 n o)
      = ∑ k : Fin 64, l (ix2 n k) * r (ix2 o k) := by
  refine (Ideal.matmul_constant_zero_apply dot_S1024x64_S64x64_S1024x64_1_1_0_0_n_n none l r (ix2 n o)).trans ?_
  rw [← Equiv.sum_comp (contrEquiv1 dot_S1024x64_S64x64_S1024x64_1_1_0_0_n_n 64 rfl rfl).symm]
  refine Finset.sum_congr rfl fun k _ => ?_
  have hk := contrEquiv1_symm_val dot_S1024x64_S64x64_S1024x64_1_1_0_0_n_n 64 rfl rfl k
  have el : dot_S1024x64_S64x64_S1024x64_1_1_0_0_n_n.lhsIdx (ix2 n o) ((contrEquiv1 dot_S1024x64_S64x64_S1024x64_1_1_0_0_n_n 64 rfl rfl).symm k) = ix2 n k := funext fun a => Fin.ext (by
    match a with
    | ⟨0, _⟩ => exact big_lhs0 _ _
    | ⟨1, _⟩ => exact (big_lhs1 _ _).trans hk)
  have er : dot_S1024x64_S64x64_S1024x64_1_1_0_0_n_n.rhsIdx (ix2 n o) ((contrEquiv1 dot_S1024x64_S64x64_S1024x64_1_1_0_0_n_n 64 rfl rfl).symm k) = ix2 o k := funext fun a => Fin.ext (by
    match a with
    | ⟨0, _⟩ => exact big_rhs0 _ _
    | ⟨1, _⟩ => exact (big_rhs1 _ _).trans hk)
  rw [el, er]

theorem row_lhs0 (i : S1x64.Idx) (q : dot_S1x64_S64x64_S1x64_1_1_0_0_n_n.contr.Idx) :
    (dot_S1x64_S64x64_S1x64_1_1_0_0_n_n.lhsIdx i q 0).val = (i 0).val := by
  unfold DotDims.lhsIdx
  rw [dif_neg (show ¬(0 : Fin S1x64.rank) ∈ dot_S1x64_S64x64_S1x64_1_1_0_0_n_n.lhsBatch by decide), dif_pos (show (0 : Fin S1x64.rank) ∈ dot_S1x64_S64x64_S1x64_1_1_0_0_n_n.lhsNonContracting by decide)]
  rfl
theorem row_lhs1 (i : S1x64.Idx) (q : dot_S1x64_S64x64_S1x64_1_1_0_0_n_n.contr.Idx) :
    (dot_S1x64_S64x64_S1x64_1_1_0_0_n_n.lhsIdx i q 1).val = (q ⟨0, by decide⟩).val :=
  dot_S1x64_S64x64_S1x64_1_1_0_0_n_n.lhsIdx_val_of_single rfl i q
theorem row_rhs0 (i : S1x64.Idx) (q : dot_S1x64_S64x64_S1x64_1_1_0_0_n_n.contr.Idx) :
    (dot_S1x64_S64x64_S1x64_1_1_0_0_n_n.rhsIdx i q 0).val = (i 1).val := by
  unfold DotDims.rhsIdx
  rw [dif_neg (show ¬(0 : Fin S64x64.rank) ∈ dot_S1x64_S64x64_S1x64_1_1_0_0_n_n.rhsBatch by decide), dif_pos (show (0 : Fin S64x64.rank) ∈ dot_S1x64_S64x64_S1x64_1_1_0_0_n_n.rhsNonContracting by decide)]
  rfl
theorem row_rhs1 (i : S1x64.Idx) (q : dot_S1x64_S64x64_S1x64_1_1_0_0_n_n.contr.Idx) :
    (dot_S1x64_S64x64_S1x64_1_1_0_0_n_n.rhsIdx i q 1).val = (q ⟨0, by decide⟩).val :=
  dot_S1x64_S64x64_S1x64_1_1_0_0_n_n.rhsIdx_val_of_single rfl i q

/-- The one-row product [1, 64] by [64, 64], at (u, o). -/
theorem row_matmul_apply (l : FVec Ideal S1x64 .bf16) (r : FVec Ideal S64x64 .bf16) (u : Fin 1) (o : Fin 64) :
    matmul (F := Ideal) dot_S1x64_S64x64_S1x64_1_1_0_0_n_n none l r (constant S1x64 .f32 0x00000000#32) (ix2 u o)
      = ∑ k : Fin 64, l (ix2 u k) * r (ix2 o k) := by
  refine (Ideal.matmul_constant_zero_apply dot_S1x64_S64x64_S1x64_1_1_0_0_n_n none l r (ix2 u o)).trans ?_
  rw [← Equiv.sum_comp (contrEquiv1 dot_S1x64_S64x64_S1x64_1_1_0_0_n_n 64 rfl rfl).symm]
  refine Finset.sum_congr rfl fun k _ => ?_
  have hk := contrEquiv1_symm_val dot_S1x64_S64x64_S1x64_1_1_0_0_n_n 64 rfl rfl k
  have el : dot_S1x64_S64x64_S1x64_1_1_0_0_n_n.lhsIdx (ix2 u o) ((contrEquiv1 dot_S1x64_S64x64_S1x64_1_1_0_0_n_n 64 rfl rfl).symm k) = ix2 u k := funext fun a => Fin.ext (by
    match a with
    | ⟨0, _⟩ => exact row_lhs0 _ _
    | ⟨1, _⟩ => exact (row_lhs1 _ _).trans hk)
  have er : dot_S1x64_S64x64_S1x64_1_1_0_0_n_n.rhsIdx (ix2 u o) ((contrEquiv1 dot_S1x64_S64x64_S1x64_1_1_0_0_n_n 64 rfl rfl).symm k) = ix2 o k := funext fun a => Fin.ext (by
    match a with
    | ⟨0, _⟩ => exact row_rhs0 _ _
    | ⟨1, _⟩ => exact (row_rhs1 _ _).trans hk)
  rw [el, er]

/-! ## The stored values -/

/-- The loaded feature block with its unit batch axis dropped, at (n, k). -/
theorem feat_apply (v0 : Vec Ideal S1x1024x64 .f32) (n : Fin 1024) (k : Fin 64) :
    k0_pay1 (F := Ideal) v0 (ix2 n k) = v0 (ix3 (0 : Fin 1) n k) := by
  unfold k0_pay1
  exact shapeCast_1ab_ab_apply v0 shapeCasts_S1x1024x64_S1024x64 n k

/-- The first stored block: every node's features projected by the weight rows. -/
theorem proj_apply (v0 : Vec Ideal S1x1024x64 .f32) (v3 : Vec Ideal S64x64 .f32) (z : Fin 1) (n : Fin 1024) (o : Fin 64) :
    k0_pay3 (F := Ideal) v0 v3 (ix3 z n o) = ∑ k : Fin 64, v0 (ix3 (0 : Fin 1) n k) * v3 (ix2 o k) := by
  unfold k0_pay3 k0_pay2
  refine (shapeCast_ab_1ab_apply _ shapeCasts_S1024x64_S1x1024x64 z n o).trans ?_
  refine (big_matmul_apply _ _ n o).trans ?_
  refine Finset.sum_congr rfl fun k _ => ?_
  exact congrArg (· * v3 (ix2 o k)) (feat_apply v0 n k)

/-- The second stored block is the same function of its weight matrix. -/
theorem proj_apply' (v0 : Vec Ideal S1x1024x64 .f32) (v5 : Vec Ideal S64x64 .f32) (z : Fin 1) (n : Fin 1024) (o : Fin 64) :
    k0_pay4 (F := Ideal) v0 v5 (ix3 z n o) = ∑ k : Fin 64, v0 (ix3 (0 : Fin 1) n k) * v5 (ix2 o k) :=
  proj_apply v0 v5 z n o

/-- The features summed over the nodes, at channel `k`: the reduction along axis 0 from the zero word. -/
theorem nodeSum_apply (v0 : Vec Ideal S1x1024x64 .f32) (k : Fin 64) :
    multiReduction (F := Ideal) .add [0] S64 (k0_pay1 (F := Ideal) v0) 0x00000000#32 reduces_S1024x64_S64 (.inl rfl) rfl (ix1 k)
      = ∑ n : Fin 1024, v0 (ix3 (0 : Fin 1) n k) := by
  refine (Ideal.multiReduction_add_single (k0_pay1 (F := Ideal) v0) 0x00000000#32 reduces_S1024x64_S64 (.inl rfl) rfl (ix1 k)).trans ?_
  show (∑ n : Fin 1024, k0_pay1 (F := Ideal) v0 (reduces_S1024x64_S64.lift (ix1 k) n)) = _
  refine Finset.sum_congr rfl fun n _ => ?_
  refine (congrArg (k0_pay1 (F := Ideal) v0) (funext fun a => Fin.ext (by
    match a with
    | ⟨0, _⟩ => rfl
    | ⟨1, _⟩ => rfl) : reduces_S1024x64_S64.lift (ix1 k) n = ix2 n k)).trans ?_
  exact feat_apply v0 n k

/-- The third stored block: the node sum projected by the weight rows, plus the bias row. -/
theorem sumProj_apply (v0 : Vec Ideal S1x1024x64 .f32) (v7 : Vec Ideal S64x64 .f32) (v21 : Vec Ideal S1x64 .f32)
    (z u : Fin 1) (o : Fin 64) :
    k0_pay5 (F := Ideal) v0 v7 v21 (ix3 z u o)
      = (∑ k : Fin 64, (∑ n : Fin 1024, v0 (ix3 (0 : Fin 1) n k)) * v7 (ix2 o k)) + v21 (ix2 u o) := by
  unfold k0_pay5
  refine (shapeCast_ab_1ab_apply _ shapeCasts_S1x64_S1x1x64 z u o).trans ?_
  refine (addf_apply _ _ (ix2 u o)).trans ?_
  refine congrArg₂ (· + ·) ?_ ?_
  · refine (row_matmul_apply _ _ u o).trans ?_
    refine Finset.sum_congr rfl fun k _ => ?_
    refine congrArg (· * v7 (ix2 o k)) ?_
    refine (truncf_apply _ bitsLt_bf16_f32 (ix2 u k)).trans ?_
    refine (shapeCast_a_1a_apply _ shapeCasts_S64_S1x64 u k).trans ?_
    exact nodeSum_apply v0 k
  · exact congrFun (shapeCast_self v21 shapeCasts_S1x64_S1x64) (ix2 u o)

end Cert.KernelIdeal.ProjPayload

end
-- ==== Proof.EdgeSpec.lean ====
/-
  The specification: what the node-to-edge graph layer computes, as one function of its argument arrays.

  With `x` the node features [4, 1024, 64], three weight matrices [64, 64] and a bias column [64, 1], let
    rowProj x w b n o = Σ_c x[b, n, c] · w[o, c]        (a node's features projected by the rows of `w`)
    colSum  x b c     = Σ_n x[b, n, c]                  (the features summed over the nodes of batch `b`)
    sumProj x w b o   = Σ_c colSum x b c · w[o, c]      (that sum projected).
  The edge tensor at (b, i, j, o) is the sum of node `i`'s projection by `w1`, node `j`'s by `w0`, the summed features'
  by `w2` and the bias at `o`. The kernel forms it as (rows + cols) + (sums + bias), the reference as
  ((cols + rows) + sums) + bias: the same extended real, since addition there is commutative and associative (no
  finiteness is asked: no term is cancelled and no factor is moved across a sum).
-/
import Idealize.ShloMosaic.PureOps.Ideal
import Idealize.ShloMosaic.Lib.ValueIdx

noncomputable section

open scoped BigOperators

namespace Cert.EdgeSpec

open Idealize.ShloMosaic Idealize.ShloMosaic.ValueIdx

/-- Node `n` of batch `b` projected onto output channel `o` by the rows of `w`. -/
def rowProj (x : (⟨3, ![4, 1024, 64]⟩ : Shape).Idx → EReal) (w : (⟨2, ![64, 64]⟩ : Shape).Idx → EReal)
    (b : Fin 4) (n : Fin 1024) (o : Fin 64) : EReal :=
  ∑ k : Fin 64, x (ix3 b n k) * w (ix2 o k)

/-- Channel `k` summed over the nodes of batch `b`. -/
def colSum (x : (⟨3, ![4, 1024, 64]⟩ : Shape).Idx → EReal) (b : Fin 4) (k : Fin 64) : EReal :=
  ∑ n : Fin 1024, x (ix3 b n k)

/-- The summed features of batch `b` projected onto output channel `o`. -/
def sumProj (x : (⟨3, ![4, 1024, 64]⟩ : Shape).Idx → EReal) (w : (⟨2, ![64, 64]⟩ : Shape).Idx → EReal)
    (b : Fin 4) (o : Fin 64) : EReal :=
  ∑ k : Fin 64, colSum x b k * w (ix2 o k)

/-- The edge tensor at (b, i, j, o), grouped as the kernel adds it. -/
def edgeAt (x : (⟨3, ![4, 1024, 64]⟩ : Shape).Idx → EReal) (w0 w1 w2 : (⟨2, ![64, 64]⟩ : Shape).Idx → EReal)
    (bias : (⟨2, ![64, 1]⟩ : Shape).Idx → EReal) (b : Fin 4) (i j : Fin 1024) (o : Fin 64) : EReal :=
  (rowProj x w1 b i o + rowProj x w0 b j o) + (sumProj x w2 b o + bias (ix2 o 0))

/-- The whole edge tensor. -/
def edge (x : (⟨3, ![4, 1024, 64]⟩ : Shape).Idx → EReal) (w0 w1 w2 : (⟨2, ![64, 64]⟩ : Shape).Idx → EReal)
    (bias : (⟨2, ![64, 1]⟩ : Shape).Idx → EReal) : (⟨4, ![4, 1024, 1024, 64]⟩ : Shape).Idx → EReal :=
  fun i => edgeAt x w0 w1 w2 bias (i 0) (i 1) (i 2) (i 3)

/-! ## The kernel's intermediate arrays, and the edge tensor from them -/

/-- Every node's projection by `w`, as an array [4, 1024, 64]. -/
def nodeProj (x : (⟨3, ![4, 1024, 64]⟩ : Shape).Idx → EReal) (w : (⟨2, ![64, 64]⟩ : Shape).Idx → EReal) :
    (⟨3, ![4, 1024, 64]⟩ : Shape).Idx → EReal :=
  fun i => rowProj x w (i 0) (i 1) (i 2)

/-- Each batch's projected node sum plus a bias ROW [1, 64], as an array [4, 1, 64]. -/
def sumRow (x : (⟨3, ![4, 1024, 64]⟩ : Shape).Idx → EReal) (w : (⟨2, ![64, 64]⟩ : Shape).Idx → EReal)
    (brow : (⟨2, ![1, 64]⟩ : Shape).Idx → EReal) : (⟨3, ![4, 1, 64]⟩ : Shape).Idx → EReal :=
  fun i => sumProj x w (i 0) (i 2) + brow (ix2 0 (i 2))

/-- Three such arrays spread over the edges: `rows` along `j`, `cols` along `i`, `sums` along both. -/
def spread (rows cols : (⟨3, ![4, 1024, 64]⟩ : Shape).Idx → EReal) (sums : (⟨3, ![4, 1, 64]⟩ : Shape).Idx → EReal) :
    (⟨4, ![4, 1024, 1024, 64]⟩ : Shape).Idx → EReal :=
  fun i => (rows (ix3 (i 0) (i 1) (i 3)) + cols (ix3 (i 0) (i 2) (i 3))) + sums (ix3 (i 0) 0 (i 3))

/-- Spreading the three projections gives the edge tensor, when the bias row is the bias column laid flat. -/
theorem spread_eq (x : (⟨3, ![4, 1024, 64]⟩ : Shape).Idx → EReal) (w0 w1 w2 : (⟨2, ![64, 64]⟩ : Shape).Idx → EReal)
    (bias : (⟨2, ![64, 1]⟩ : Shape).Idx → EReal) (brow : (⟨2, ![1, 64]⟩ : Shape).Idx → EReal)
    (h : ∀ o : Fin 64, brow (ix2 0 o) = bias (ix2 o 0)) :
    spread (nodeProj x w1) (nodeProj x w0) (sumRow x w2 brow) = edge x w0 w1 w2 bias := by
  funext i
  show (rowProj x w1 (i 0) (i 1) (i 3) + rowProj x w0 (i 0) (i 2) (i 3)) + (sumProj x w2 (i 0) (i 3) + brow (ix2 0 (i 3)))
    = edgeAt x w0 w1 w2 bias (i 0) (i 1) (i 2) (i 3)
  rw [h (i 3)]
  rfl

/-- The two groupings of the four summands agree on the extended reals. -/
theorem regroup (r c s v : EReal) : ((c + r) + s) + v = (r + c) + (s + v) := by
  rw [add_comm c r, add_assoc]

end Cert.EdgeSpec

end
-- ==== Proof.ProjValue.lean ====
/-
  The projection region's three result arrays, as whole-array functions of what the region finds.

  The region runs once per batch element (four points). At point `b` it reads block `b` of the features (all 1024
  nodes, all 64 channels), the three weight matrices and the bias row whole, and writes block `b` of each of its three
  results. So block `b` of the first result is every node's projection by the first weight matrix, of the second by
  the second, and the one row of the third is the projected node sum plus the bias row; the four blocks tile each
  array, so each array ends at one function of the entry contents.
-/
import proofs.«115965_j41583873360239_1_alg».proof.Proof.Gen.KernelIdeal.Frame
import proofs.«115965_j41583873360239_1_alg».proof.Proof.ProjPayload
import proofs.«115965_j41583873360239_1_alg».proof.Proof.EdgeSpec

set_option maxRecDepth 16384

noncomputable section

open scoped BigOperators

namespace Cert.KernelIdeal.ProjValue

open Cert.KernelIdeal Cert.KernelIdeal.Gen Idealize.ShloMosaic Idealize.ShloMosaic.TcCoe Idealize.SL.Sem
open Idealize.ShloMosaic.ValueIdx Cert.EdgeSpec Cert.KernelIdeal.ProjPayload
open Idealize.ShloMosaic.Pipeline (Dat)

-- the buffer contents the region is entered with: any
variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The block index maps over the four points: the features and the three results move with the batch element, the
    weights and the bias row stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-- The batch element a point works on. -/
def batchOf (t : Fin cfg0.N) : Fin 4 := ⟨t.val, lt_of_lt_of_eq t.isLt N_0⟩

/-- The point that works on a batch element. -/
def pointOf (b : Fin 4) : Fin cfg0.N := ⟨b.val, lt_of_lt_of_eq b.isLt N_0.symm⟩

/-! ## The input blocks, read -/

theorem feat_read (c : Dev nD) (t : Fin cfg0.N) (z : Fin 1) (n : Fin 1024) (k : Fin 64) :
    (iblk0 V c 0 t : Vec Ideal S1x1024x64 .f32) (ix3 z n k) = (V c main_arg0 : S4x1024x64.Idx → EReal) (ix3 (batchOf t) n k) := by
  obtain ⟨e0, e1, e2, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 3) * 1 + 1 * z.val = t.val; rw [e0]; omega
  | ⟨1, _⟩ => show win0_0.index t (1 : Fin 3) * 1024 + 1 * n.val = n.val; rw [e1]; omega
  | ⟨2, _⟩ => show win0_0.index t (2 : Fin 3) * 64 + 1 * k.val = k.val; rw [e2]; omega

theorem w0_read (c : Dev nD) (t : Fin cfg0.N) (o k : Fin 64) :
    (iblk0 V c 1 t : Vec Ideal S64x64 .f32) (ix2 o k) = (V c main_arg2 : S64x64.Idx → EReal) (ix2 o k) := by
  obtain ⟨-, -, -, e0, e1, -⟩ := idx_facts t
  unfold iblk0
  rw [View.read_apply]
  show V c main_arg2 _ = V c main_arg2 _
  refine congrArg (V c main_arg2) (funext fun a => Fin.ext ?_)
  match a with
  | ⟨0, _⟩ => show win0_1.index t (0 : Fin 2) * 64 + 1 * o.val = o.val; rw [e0]; omega
  | ⟨1, _⟩ => show win0_1.index t (1 : Fin 2) * 64 + 1 * k.val = k.val; rw [e1]; omega

theorem w1_read (c : Dev nD) (t : Fin cfg0.N) (o k : Fin 64) :
    (iblk0 V c 2 t : Vec Ideal S64x64 .f32) (ix2 o k) = (V c main_arg3 : S64x64.Idx → EReal) (ix2 o k) := by
  obtain ⟨-, -, -, -, -, e0, e1, -⟩ := idx_facts t
  unfold iblk0
  rw [View.read_apply]
  show V c main_arg3 _ = V c main_arg3 _
  refine congrArg (V c main_arg3) (funext fun a => Fin.ext ?_)
  match a with
  | ⟨0, _⟩ => show win0_2.index t (0 : Fin 2) * 64 + 1 * o.val = o.val; rw [e0]; omega
  | ⟨1, _⟩ => show win0_2.index t (1 : Fin 2) * 64 + 1 * k.val = k.val; rw [e1]; omega

theorem w2_read (c : Dev nD) (t : Fin cfg0.N) (o k : Fin 64) :
    (iblk0 V c 3 t : Vec Ideal S64x64 .f32) (ix2 o k) = (V c main_arg4 : S64x64.Idx → EReal) (ix2 o k) := by
  obtain ⟨-, -, -, -, -, -, -, e0, e1, -⟩ := idx_facts t
  unfold iblk0
  rw [View.read_apply]
  show V c main_arg4 _ = V c main_arg4 _
  refine congrArg (V c main_arg4) (funext fun a => Fin.ext ?_)
  match a with
  | ⟨0, _⟩ => show win0_3.index t (0 : Fin 2) * 64 + 1 * o.val = o.val; rw [e0]; omega
  | ⟨1, _⟩ => show win0_3.index t (1 : Fin 2) * 64 + 1 * k.val = k.val; rw [e1]; omega

theorem brow_read (c : Dev nD) (t : Fin cfg0.N) (u : Fin 1) (o : Fin 64) :
    (iblk0 V c 4 t : Vec Ideal S1x64 .f32) (ix2 u o) = (V c main_v1 : S1x64.Idx → EReal) (ix2 (0 : Fin 1) o) := by
  obtain ⟨-, -, -, -, -, -, -, -, -, e0, e1, -⟩ := idx_facts t
  unfold iblk0
  rw [View.read_apply]
  show V c main_v1 _ = V c main_v1 _
  refine congrArg (V c main_v1) (funext fun a => Fin.ext ?_)
  match a with
  | ⟨0, _⟩ => show win0_4.index t (0 : Fin 2) * 1 + 1 * u.val = 0; rw [e0]; omega
  | ⟨1, _⟩ => show win0_4.index t (1 : Fin 2) * 64 + 1 * o.val = o.val; rw [e1]; omega

/-! ## What each point writes back -/

theorem cols_flushed (c : Dev nD) (t : Fin cfg0.N) :
    (dat0 V c).flushed 5 t = ((cfg0.win 5).blk t).view.read (Elt Ideal) (nodeProj (V c main_arg0) (V c main_arg2)) := by
  show (cfg0.win 5).cut (grid0.coords t) ((dat0 V c).after 5 t) = _
  rw [after0_5]
  unfold out0_5
  rw [View.canon_unit_zero hz3]
  simp only [View.ld_unit_zero (S := S1x1024x64) hz3, View.ld_unit_zero (S := S64x64) hz2]
  refine funext fun (j : S1x1024x64.Idx) => ?_
  obtain ⟨z, n, o, rfl⟩ : ∃ (z : Fin 1) (n : Fin 1024) (o : Fin 64), j = ix3 z n o := ⟨j 0, j 1, j 2, eq_ix3 j⟩
  show k0_pay3 (iblk0 V c 0 t) (iblk0 V c 1 t) (ix3 z n o)
    = nodeProj (V c main_arg0) (V c main_arg2) (((cfg0.win 5).blk t).view.emb (ix3 z n o))
  obtain ⟨-, -, -, -, -, -, -, -, -, -, -, e0, e1, e2, -⟩ := idx_facts t
  have he : ((cfg0.win 5).blk t).view.emb (ix3 z n o) = (ix3 (batchOf t) n o : S4x1024x64.Idx) := funext fun a => Fin.ext (by
    match a with
    | ⟨0, _⟩ => show win0_5.index t (0 : Fin 3) * 1 + 1 * z.val = t.val; rw [e0]; omega
    | ⟨1, _⟩ => show win0_5.index t (1 : Fin 3) * 1024 + 1 * n.val = n.val; rw [e1]; omega
    | ⟨2, _⟩ => show win0_5.index t (2 : Fin 3) * 64 + 1 * o.val = o.val; rw [e2]; omega)
  rw [he]
  refine (proj_apply _ _ z n o).trans ?_
  show _ = rowProj (V c main_arg0) (V c main_arg2) (batchOf t) n o
  unfold rowProj
  refine Finset.sum_congr rfl fun k _ => ?_
  rw [feat_read V c t 0 n k, w0_read V c t o k]

theorem rows_flushed (c : Dev nD) (t : Fin cfg0.N) :
    (dat0 V c).flushed 6 t = ((cfg0.win 6).blk t).view.read (Elt Ideal) (nodeProj (V c main_arg0) (V c main_arg3)) := by
  show (cfg0.win 6).cut (grid0.coords t) ((dat0 V c).after 6 t) = _
  rw [after0_6]
  unfold out0_6
  rw [View.canon_unit_zero hz3]
  simp only [View.ld_unit_zero (S := S1x1024x64) hz3, View.ld_unit_zero (S := S64x64) hz2]
  refine funext fun (j : S1x1024x64.Idx) => ?_
  obtain ⟨z, n, o, rfl⟩ : ∃ (z : Fin 1) (n : Fin 1024) (o : Fin 64), j = ix3 z n o := ⟨j 0, j 1, j 2, eq_ix3 j⟩
  show k0_pay4 (iblk0 V c 0 t) (iblk0 V c 2 t) (ix3 z n o)
    = nodeProj (V c main_arg0) (V c main_arg3) (((cfg0.win 6).blk t).view.emb (ix3 z n o))
  obtain ⟨-, -, -, -, -, -, -, -, -, -, -, -, -, -, e0, e1, e2, -⟩ := idx_facts t
  have he : ((cfg0.win 6).blk t).view.emb (ix3 z n o) = (ix3 (batchOf t) n o : S4x1024x64.Idx) := funext fun a => Fin.ext (by
    match a with
    | ⟨0, _⟩ => show win0_6.index t (0 : Fin 3) * 1 + 1 * z.val = t.val; rw [e0]; omega
    | ⟨1, _⟩ => show win0_6.index t (1 : Fin 3) * 1024 + 1 * n.val = n.val; rw [e1]; omega
    | ⟨2, _⟩ => show win0_6.index t (2 : Fin 3) * 64 + 1 * o.val = o.val; rw [e2]; omega)
  rw [he]
  refine (proj_apply' _ _ z n o).trans ?_
  show _ = rowProj (V c main_arg0) (V c main_arg3) (batchOf t) n o
  unfold rowProj
  refine Finset.sum_congr rfl fun k _ => ?_
  rw [feat_read V c t 0 n k, w1_read V c t o k]

theorem sums_flushed (c : Dev nD) (t : Fin cfg0.N) :
    (dat0 V c).flushed 7 t
      = ((cfg0.win 7).blk t).view.read (Elt Ideal) (sumRow (V c main_arg0) (V c main_arg4) (V c main_v1)) := by
  show (cfg0.win 7).cut (grid0.coords t) ((dat0 V c).after 7 t) = _
  rw [after0_7]
  unfold out0_7
  rw [View.canon_unit_zero hz3]
  simp only [View.ld_unit_zero (S := S1x1024x64) hz3, View.ld_unit_zero (S := S64x64) hz2, View.ld_unit_zero (S := S1x64) hz2]
  refine funext fun (j : S1x1x64.Idx) => ?_
  obtain ⟨z, u, o, rfl⟩ : ∃ (z u : Fin 1) (o : Fin 64), j = ix3 z u o := ⟨j 0, j 1, j 2, eq_ix3 j⟩
  show k0_pay5 (iblk0 V c 0 t) (iblk0 V c 3 t) (iblk0 V c 4 t) (ix3 z u o)
    = sumRow (V c main_arg0) (V c main_arg4) (V c main_v1) (((cfg0.win 7).blk t).view.emb (ix3 z u o))
  obtain ⟨-, -, -, -, -, -, -, -, -, -, -, -, -, -, -, -, -, e0, e1, e2⟩ := idx_facts t
  have he : ((cfg0.win 7).blk t).view.emb (ix3 z u o) = (ix3 (batchOf t) (0 : Fin 1) o : S4x1x64.Idx) := funext fun a => Fin.ext (by
    match a with
    | ⟨0, _⟩ => show win0_7.index t (0 : Fin 3) * 1 + 1 * z.val = t.val; rw [e0]; omega
    | ⟨1, _⟩ => show win0_7.index t (1 : Fin 3) * 1 + 1 * u.val = 0; rw [e1]; omega
    | ⟨2, _⟩ => show win0_7.index t (2 : Fin 3) * 64 + 1 * o.val = o.val; rw [e2]; omega)
  rw [he]
  refine (sumProj_apply _ _ _ z u o).trans ?_
  show _ = sumProj (V c main_arg0) (V c main_arg4) (batchOf t) o + V c main_v1 (ix2 (0 : Fin 1) o)
  unfold sumProj colSum
  refine congrArg₂ (· + ·) (Finset.sum_congr rfl fun k _ => ?_) (brow_read V c t u o)
  rw [w2_read V c t o k]
  refine congrArg (· * _) (Finset.sum_congr rfl fun n _ => ?_)
  exact feat_read V c t 0 n k

/-! ## The blocks tile the arrays -/

theorem mem_cols (t : Fin cfg0.N) (i : S4x1024x64.Idx) :
    i ∈ ((cfg0.win 5).blk t).view.set ↔ ∀ a : Fin 3, win0_5.index t a * S1x1024x64.size a ≤ (i a).val
      ∧ (i a).val < win0_5.index t a * S1x1024x64.size a + S1x1024x64.size a := by
  show i ∈ ((View.whole main_v2_0).slice (win0_5.rect t)).set ↔ _
  rw [View.set_slice_whole, Rect.mem_set_unit]
  exact Iff.rfl

theorem mem_rows (t : Fin cfg0.N) (i : S4x1024x64.Idx) :
    i ∈ ((cfg0.win 6).blk t).view.set ↔ ∀ a : Fin 3, win0_6.index t a * S1x1024x64.size a ≤ (i a).val
      ∧ (i a).val < win0_6.index t a * S1x1024x64.size a + S1x1024x64.size a := by
  show i ∈ ((View.whole main_v2_1).slice (win0_6.rect t)).set ↔ _
  rw [View.set_slice_whole, Rect.mem_set_unit]
  exact Iff.rfl

theorem mem_sums (t : Fin cfg0.N) (i : S4x1x64.Idx) :
    i ∈ ((cfg0.win 7).blk t).view.set ↔ ∀ a : Fin 3, win0_7.index t a * S1x1x64.size a ≤ (i a).val
      ∧ (i a).val < win0_7.index t a * S1x1x64.size a + S1x1x64.size a := by
  show i ∈ ((View.whole main_v2_2).slice (win0_7.rect t)).set ↔ _
  rw [View.set_slice_whole, Rect.mem_set_unit]
  exact Iff.rfl

theorem cols_cover (i : S4x1024x64.Idx) :
    ∃ t : Fin cfg0.N, (cfg0.win 5).flush t = true ∧ i ∈ ((cfg0.win 5).blk t).view.set := by
  have hi0 : (i 0).val < 4 := (i 0).isLt
  have hi1 : (i 1).val < 1024 := (i 1).isLt
  have hi2 : (i 2).val < 64 := (i 2).isLt
  obtain ⟨-, -, -, -, -, -, -, -, -, -, -, e0, e1, e2, -⟩ := idx_facts (pointOf ⟨(i 0).val, hi0⟩)
  refine ⟨pointOf ⟨(i 0).val, hi0⟩, flush0_5 _, ?_⟩
  rw [mem_cols]
  intro a
  match a with
  | ⟨0, _⟩ => show win0_5.index (pointOf ⟨(i 0).val, hi0⟩) (0 : Fin 3) * 1 ≤ (i 0).val ∧ (i 0).val < win0_5.index (pointOf ⟨(i 0).val, hi0⟩) (0 : Fin 3) * 1 + 1
              rw [e0]; show (i 0).val * 1 ≤ (i 0).val ∧ (i 0).val < (i 0).val * 1 + 1; omega
  | ⟨1, _⟩ => show win0_5.index (pointOf ⟨(i 0).val, hi0⟩) (1 : Fin 3) * 1024 ≤ (i 1).val ∧ (i 1).val < win0_5.index (pointOf ⟨(i 0).val, hi0⟩) (1 : Fin 3) * 1024 + 1024
              rw [e1]; omega
  | ⟨2, _⟩ => show win0_5.index (pointOf ⟨(i 0).val, hi0⟩) (2 : Fin 3) * 64 ≤ (i 2).val ∧ (i 2).val < win0_5.index (pointOf ⟨(i 0).val, hi0⟩) (2 : Fin 3) * 64 + 64
              rw [e2]; omega

theorem rows_cover (i : S4x1024x64.Idx) :
    ∃ t : Fin cfg0.N, (cfg0.win 6).flush t = true ∧ i ∈ ((cfg0.win 6).blk t).view.set := by
  have hi0 : (i 0).val < 4 := (i 0).isLt
  have hi1 : (i 1).val < 1024 := (i 1).isLt
  have hi2 : (i 2).val < 64 := (i 2).isLt
  obtain ⟨-, -, -, -, -, -, -, -, -, -, -, -, -, -, e0, e1, e2, -⟩ := idx_facts (pointOf ⟨(i 0).val, hi0⟩)
  refine ⟨pointOf ⟨(i 0).val, hi0⟩, flush0_6 _, ?_⟩
  rw [mem_rows]
  intro a
  match a with
  | ⟨0, _⟩ => show win0_6.index (pointOf ⟨(i 0).val, hi0⟩) (0 : Fin 3) * 1 ≤ (i 0).val ∧ (i 0).val < win0_6.index (pointOf ⟨(i 0).val, hi0⟩) (0 : Fin 3) * 1 + 1
              rw [e0]; show (i 0).val * 1 ≤ (i 0).val ∧ (i 0).val < (i 0).val * 1 + 1; omega
  | ⟨1, _⟩ => show win0_6.index (pointOf ⟨(i 0).val, hi0⟩) (1 : Fin 3) * 1024 ≤ (i 1).val ∧ (i 1).val < win0_6.index (pointOf ⟨(i 0).val, hi0⟩) (1 : Fin 3) * 1024 + 1024
              rw [e1]; omega
  | ⟨2, _⟩ => show win0_6.index (pointOf ⟨(i 0).val, hi0⟩) (2 : Fin 3) * 64 ≤ (i 2).val ∧ (i 2).val < win0_6.index (pointOf ⟨(i 0).val, hi0⟩) (2 : Fin 3) * 64 + 64
              rw [e2]; omega

theorem sums_cover (i : S4x1x64.Idx) :
    ∃ t : Fin cfg0.N, (cfg0.win 7).flush t = true ∧ i ∈ ((cfg0.win 7).blk t).view.set := by
  have hi0 : (i 0).val < 4 := (i 0).isLt
  have hi1 : (i 1).val < 1 := (i 1).isLt
  have hi2 : (i 2).val < 64 := (i 2).isLt
  obtain ⟨-, -, -, -, -, -, -, -, -, -, -, -, -, -, -, -, -, e0, e1, e2⟩ := idx_facts (pointOf ⟨(i 0).val, hi0⟩)
  refine ⟨pointOf ⟨(i 0).val, hi0⟩, flush0_7 _, ?_⟩
  rw [mem_sums]
  intro a
  match a with
  | ⟨0, _⟩ => show win0_7.index (pointOf ⟨(i 0).val, hi0⟩) (0 : Fin 3) * 1 ≤ (i 0).val ∧ (i 0).val < win0_7.index (pointOf ⟨(i 0).val, hi0⟩) (0 : Fin 3) * 1 + 1
              rw [e0]; show (i 0).val * 1 ≤ (i 0).val ∧ (i 0).val < (i 0).val * 1 + 1; omega
  | ⟨1, _⟩ => show win0_7.index (pointOf ⟨(i 0).val, hi0⟩) (1 : Fin 3) * 1 ≤ (i 1).val ∧ (i 1).val < win0_7.index (pointOf ⟨(i 0).val, hi0⟩) (1 : Fin 3) * 1 + 1
              rw [e1]; omega
  | ⟨2, _⟩ => show win0_7.index (pointOf ⟨(i 0).val, hi0⟩) (2 : Fin 3) * 64 ≤ (i 2).val ∧ (i 2).val < win0_7.index (pointOf ⟨(i 0).val, hi0⟩) (2 : Fin 3) * 64 + 64
              rw [e2]; omega

/-! ## The three arrays after the region -/

theorem cols_final (c : Dev nD) : (dat0 V c).arrAt 5 cfg0.N = nodeProj (V c main_arg0) (V c main_arg2) :=
  (dat0 V c).arrAt_eq_of_cover 5 _ (fun t _ => cols_flushed V c t) cols_cover

theorem rows_final (c : Dev nD) : (dat0 V c).arrAt 6 cfg0.N = nodeProj (V c main_arg0) (V c main_arg3) :=
  (dat0 V c).arrAt_eq_of_cover 6 _ (fun t _ => rows_flushed V c t) rows_cover

theorem sums_final (c : Dev nD) : (dat0 V c).arrAt 7 cfg0.N = sumRow (V c main_arg0) (V c main_arg4) (V c main_v1) :=
  (dat0 V c).arrAt_eq_of_cover 7 _ (fun t _ => sums_flushed V c t) sums_cover

end Cert.KernelIdeal.ProjValue

end
-- ==== Proof.BcastPayload.lean ====
/-
  The broadcast kernel's stored value, read at an index, at the extended reals.

  The body loads a tile of 256 row projections, a tile of 128 column projections and the batch's one sum row, each
  with a leading unit axis, spreads the first along a new middle axis, the second along a new leading axis and the
  third along both, and adds them: the stored [1, 256, 128, 64] block at (·, r, s, o) is
  (rows[0, r, o] + cols[0, s, o]) + sums[0, 0, o].
-/
import proofs.«115965_j41583873360239_1_alg».proof.Proof.Gen.KernelIdeal.Skeleton
import Idealize.ShloMosaic.Lib.Pipeline.Value
import Idealize.ShloMosaic.Lib.ValueIdx
import Idealize.ShloMosaic.Lib.ValueLayout

noncomputable section

namespace Cert.KernelIdeal.BcastPayload

open Cert.KernelIdeal Cert.KernelIdeal.Gen Idealize.ShloMosaic Idealize.ShloMosaic.ValueIdx

variable {α : Type}

/-- A [256, 64] tile given a unit middle axis reads (r, ·, o) at (r, o). -/
theorem midUnit_apply (x : S256x64.Idx → α) (r : Fin 256) (u : Fin 1) (o : Fin 64) :
    shapeCast S256x1x64 x shapeCasts_S256x64_S256x1x64 (ix3 r u o) = x (ix2 r o) :=
  shapeCast_apply x shapeCasts_S256x64_S256x1x64 _ _ (by
    have hu : u.val = 0 := by omega
    rw [Shape.rowMajor_val_three, Shape.rowMajor_val_two]
    show r.val * 64 + o.val = (r.val * 1 + u.val) * 64 + o.val
    rw [hu, Nat.mul_one, Nat.add_zero])

/-- Spread along the middle axis: (r, s, o) reads (r, 0, o). -/
theorem spreadMid_apply (x : S256x1x64.Idx → α) (r : Fin 256) (s : Fin 128) (o : Fin 64) :
    broadcastTo S256x128x64 x broadcasts_S256x1x64_S256x128x64 (ix3 r s o) = x (ix3 r (0 : Fin 1) o) := by
  refine broadcastTo_apply x broadcasts_S256x1x64_S256x128x64 (ix3 r s o) (ix3 r (0 : Fin 1) o) fun ax => ?_
  match ax with
  | ⟨0, _⟩ => show r.val = if (256 : Nat) = 1 then 0 else r.val; rw [if_neg (by decide)]
  | ⟨1, _⟩ => show 0 = if (1 : Nat) = 1 then 0 else s.val; rw [if_pos rfl]
  | ⟨2, _⟩ => show o.val = if (64 : Nat) = 1 then 0 else o.val; rw [if_neg (by decide)]

/-- Spread along the leading axis: (r, s, o) reads (0, s, o). -/
theorem spreadLead_apply (x : S1x128x64.Idx → α) (r : Fin 256) (s : Fin 128) (o : Fin 64) :
    broadcastTo S256x128x64 x broadcasts_S1x128x64_S256x128x64 (ix3 r s o) = x (ix3 (0 : Fin 1) s o) := by
  refine broadcastTo_apply x broadcasts_S1x128x64_S256x128x64 (ix3 r s o) (ix3 (0 : Fin 1) s o) fun ax => ?_
  match ax with
  | ⟨0, _⟩ => show 0 = if (1 : Nat) = 1 then 0 else r.val; rw [if_pos rfl]
  | ⟨1, _⟩ => show s.val = if (128 : Nat) = 1 then 0 else s.val; rw [if_neg (by decide)]
  | ⟨2, _⟩ => show o.val = if (64 : Nat) = 1 then 0 else o.val; rw [if_neg (by decide)]

/-- Spread along both: (r, s, o) reads (0, 0, o). -/
theorem spreadBoth_apply (x : S1x1x64.Idx → α) (r : Fin 256) (s : Fin 128) (o : Fin 64) :
    broadcastTo S256x128x64 x broadcasts_S1x1x64_S256x128x64 (ix3 r s o) = x (ix3 (0 : Fin 1) (0 : Fin 1) o) := by
  refine broadcastTo_apply x broadcasts_S1x1x64_S256x128x64 (ix3 r s o) (ix3 (0 : Fin 1) (0 : Fin 1) o) fun ax => ?_
  match ax with
  | ⟨0, _⟩ => show 0 = if (1 : Nat) = 1 then 0 else r.val; rw [if_pos rfl]
  | ⟨1, _⟩ => show 0 = if (1 : Nat) = 1 then 0 else s.val; rw [if_pos rfl]
  | ⟨2, _⟩ => show o.val = if (64 : Nat) = 1 then 0 else o.val; rw [if_neg (by decide)]

/-- The stored block at (·, r, s, o). -/
theorem edgeTile_apply (v0 : Vec Ideal S1x256x64 .f32) (v2 : Vec Ideal S1x128x64 .f32) (v4 : Vec Ideal S1x1x64 .f32)
    (z : Fin 1) (r : Fin 256) (s : Fin 128) (o : Fin 64) :
    k1_pay1 (F := Ideal) v0 v2 v4 (ix4 z r s o)
      = (v0 (ix3 (0 : Fin 1) r o) + v2 (ix3 (0 : Fin 1) s o)) + v4 (ix3 (0 : Fin 1) (0 : Fin 1) o) := by
  unfold k1_pay1
  refine (shapeCast_abc_1abc_apply _ shapeCasts_S256x128x64_S1x256x128x64 z r s o).trans ?_
  refine (addf_apply _ _ (ix3 r s o)).trans ?_
  refine congrArg₂ (· + ·) ((addf_apply _ _ (ix3 r s o)).trans (congrArg₂ (· + ·) ?_ ?_)) ?_
  · refine (spreadMid_apply _ r s o).trans ?_
    refine (midUnit_apply _ r 0 o).trans ?_
    exact shapeCast_1ab_ab_apply v0 shapeCasts_S1x256x64_S256x64 r o
  · refine (spreadLead_apply _ r s o).trans ?_
    refine (shapeCast_ab_1ab_apply _ shapeCasts_S128x64_S1x128x64 0 s o).trans ?_
    exact shapeCast_1ab_ab_apply v2 shapeCasts_S1x128x64_S128x64 s o
  · refine (spreadBoth_apply _ r s o).trans ?_
    refine (shapeCast_ab_1ab_apply _ shapeCasts_S1x64_S1x1x64 0 0 o).trans ?_
    exact shapeCast_1ab_ab_apply v4 shapeCasts_S1x1x64_S1x64 0 o

end Cert.KernelIdeal.BcastPayload

end
-- ==== Proof.BcastValue.lean ====
/-
  The broadcast region's result array, as a whole-array function of what the region finds.

  The region runs over batch element `b`, row tile `p` (256 nodes) and column tile `q` (128 nodes): 128 points. At a
  point it reads tile `p` of the row projections, tile `q` of the column projections and the batch's sum row, and
  writes tile (b, p, q) of the result: at (b, 256p + r, 128q + s, o) the row projection of node 256p + r plus the
  column projection of node 128q + s plus the sum row, all at (b, ·, o). The tiles fill the result array.
-/
import proofs.«115965_j41583873360239_1_alg».proof.Proof.Gen.KernelIdeal.Frame
import proofs.«115965_j41583873360239_1_alg».proof.Proof.BcastPayload
import proofs.«115965_j41583873360239_1_alg».proof.Proof.EdgeSpec

set_option maxRecDepth 16384

noncomputable section

namespace Cert.KernelIdeal.BcastValue

open Cert.KernelIdeal Cert.KernelIdeal.Gen Idealize.ShloMosaic Idealize.ShloMosaic.TcCoe Idealize.SL.Sem
open Idealize.ShloMosaic.ValueIdx Cert.EdgeSpec Cert.KernelIdeal.BcastPayload
open Idealize.ShloMosaic.Pipeline (Dat)

-- the buffer contents the region is entered with: any
variable (V : (c : Dev nD) → (b : Ref sig .tc) → Buf (Elt Ideal) ((c : Thread nD τ).loc b))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The block index maps over the 128 points: each input tile sits where the result tile's batch element, row
    tile or column tile says, and the result's tile indices stay in their ranges. -/
theorem idx_facts : ∀ t : Fin cfg1.N,
    win1_0.index t (0 : Fin 3) = win1_3.index t (0 : Fin 4) ∧ win1_0.index t (1 : Fin 3) = win1_3.index t (1 : Fin 4)
    ∧ win1_0.index t (2 : Fin 3) = 0
    ∧ win1_1.index t (0 : Fin 3) = win1_3.index t (0 : Fin 4) ∧ win1_1.index t (1 : Fin 3) = win1_3.index t (2 : Fin 4)
    ∧ win1_1.index t (2 : Fin 3) = 0
    ∧ win1_2.index t (0 : Fin 3) = win1_3.index t (0 : Fin 4) ∧ win1_2.index t (1 : Fin 3) = 0
    ∧ win1_2.index t (2 : Fin 3) = 0
    ∧ win1_3.index t (3 : Fin 4) = 0 ∧ win1_3.index t (0 : Fin 4) ≤ 3 ∧ win1_3.index t (1 : Fin 4) ≤ 3
    ∧ win1_3.index t (2 : Fin 4) ≤ 7 :=
  (by decide +kernel : ∀ t : Fin grid1.N, _)

/-- Every tile of the result is some point's. -/
theorem idx_onto : ∀ (q0 : Fin 4) (q1 : Fin 4) (q2 : Fin 8), ∃ t : Fin cfg1.N,
    win1_3.index t (0 : Fin 4) = q0.val ∧ win1_3.index t (1 : Fin 4) = q1.val ∧ win1_3.index t (2 : Fin 4) = q2.val :=
  (by decide +kernel : ∀ (q0 : Fin 4) (q1 : Fin 4) (q2 : Fin 8), ∃ t : Fin grid1.N,
    win1_3.index t (0 : Fin 4) = q0.val ∧ win1_3.index t (1 : Fin 4) = q1.val ∧ win1_3.index t (2 : Fin 4) = q2.val)

/-- WHAT POINT `t` WRITES BACK is tile `t` of the three entry arrays spread over the edges. -/
theorem edge_flushed (c : Dev nD) (t : Fin cfg1.N) :
    (dat1 V c).flushed 3 t
      = ((cfg1.win 3).blk t).view.read (Elt Ideal) (spread (V c main_v2_1) (V c main_v2_0) (V c main_v2_2)) := by
  show (cfg1.win 3).cut (grid1.coords t) ((dat1 V c).after 3 t) = _
  rw [after1_3]
  unfold out1_3
  rw [View.canon_unit_zero hz4]
  simp only [View.ld_unit_zero (S := S1x256x64) hz3, View.ld_unit_zero (S := S1x128x64) hz3, View.ld_unit_zero (S := S1x1x64) hz3]
  refine funext fun (j : S1x256x128x64.Idx) => ?_
  obtain ⟨z, r, s, o, rfl⟩ : ∃ (z : Fin 1) (r : Fin 256) (s : Fin 128) (o : Fin 64), j = ix4 z r s o :=
    ⟨j 0, j 1, j 2, j 3, eq_ix4 j⟩
  show k1_pay1 (iblk1 V c 0 t) (iblk1 V c 1 t) (iblk1 V c 2 t) (ix4 z r s o)
    = spread (V c main_v2_1) (V c main_v2_0) (V c main_v2_2) (((cfg1.win 3).blk t).view.emb (ix4 z r s o))
  obtain ⟨a0, a1, a2, b0, b1, b2, c0, c1, c2, d3, -⟩ := idx_facts t
  refine (edgeTile_apply _ _ _ z r s o).trans ?_
  have hz : z.val = 0 := by omega
  refine congrArg₂ (· + ·) (congrArg₂ (· + ·) ?_ ?_) ?_
  · show V c main_v2_1 (((cfg1.win 0).blk t).view.emb (ix3 (0 : Fin 1) r o)) = V c main_v2_1 _
    refine congrArg (V c main_v2_1) (funext fun a => Fin.ext ?_)
    match a with
    | ⟨0, _⟩ => show win1_0.index t (0 : Fin 3) * 1 + 1 * 0 = win1_3.index t (0 : Fin 4) * 1 + 1 * z.val; omega
    | ⟨1, _⟩ => show win1_0.index t (1 : Fin 3) * 256 + 1 * r.val = win1_3.index t (1 : Fin 4) * 256 + 1 * r.val; omega
    | ⟨2, _⟩ => show win1_0.index t (2 : Fin 3) * 64 + 1 * o.val = win1_3.index t (3 : Fin 4) * 64 + 1 * o.val; omega
  · show V c main_v2_0 (((cfg1.win 1).blk t).view.emb (ix3 (0 : Fin 1) s o)) = V c main_v2_0 _
    refine congrArg (V c main_v2_0) (funext fun a => Fin.ext ?_)
    match a with
    | ⟨0, _⟩ => show win1_1.index t (0 : Fin 3) * 1 + 1 * 0 = win1_3.index t (0 : Fin 4) * 1 + 1 * z.val; omega
    | ⟨1, _⟩ => show win1_1.index t (1 : Fin 3) * 128 + 1 * s.val = win1_3.index t (2 : Fin 4) * 128 + 1 * s.val; omega
    | ⟨2, _⟩ => show win1_1.index t (2 : Fin 3) * 64 + 1 * o.val = win1_3.index t (3 : Fin 4) * 64 + 1 * o.val; omega
  · show V c main_v2_2 (((cfg1.win 2).blk t).view.emb (ix3 (0 : Fin 1) (0 : Fin 1) o)) = V c main_v2_2 _
    refine congrArg (V c main_v2_2) (funext fun a => Fin.ext ?_)
    match a with
    | ⟨0, _⟩ => show win1_2.index t (0 : Fin 3) * 1 + 1 * 0 = win1_3.index t (0 : Fin 4) * 1 + 1 * z.val; omega
    | ⟨1, _⟩ => show win1_2.index t (1 : Fin 3) * 1 + 1 * 0 = 0; omega
    | ⟨2, _⟩ => show win1_2.index t (2 : Fin 3) * 64 + 1 * o.val = win1_3.index t (3 : Fin 4) * 64 + 1 * o.val; omega

/-- An index of the result is in point `t`'s tile iff each coordinate is in the tile's range on its axis. -/
theorem mem_tile (t : Fin cfg1.N) (i : S4x1024x1024x64.Idx) :
    i ∈ ((cfg1.win 3).blk t).view.set ↔ ∀ a : Fin 4, win1_3.index t a * S1x256x128x64.size a ≤ (i a).val
      ∧ (i a).val < win1_3.index t a * S1x256x128x64.size a + S1x256x128x64.size a := by
  show i ∈ ((View.whole main_v3).slice (win1_3.rect t)).set ↔ _
  rw [View.set_slice_whole, Rect.mem_set_unit]
  exact Iff.rfl

/-- Every index of the result lies in some point's tile. -/
theorem tiles_cover (i : S4x1024x1024x64.Idx) :
    ∃ t : Fin cfg1.N, (cfg1.win 3).flush t = true ∧ i ∈ ((cfg1.win 3).blk t).view.set := by
  have hi0 : (i 0).val < 4 := (i 0).isLt
  have hi1 : (i 1).val < 1024 := (i 1).isLt
  have hi2 : (i 2).val < 1024 := (i 2).isLt
  have hi3 : (i 3).val < 64 := (i 3).isLt
  obtain ⟨t, q0, q1, q2⟩ := idx_onto ⟨(i 0).val, hi0⟩ ⟨(i 1).val / 256, by omega⟩ ⟨(i 2).val / 128, by omega⟩
  obtain ⟨-, -, -, -, -, -, -, -, -, d3, -⟩ := idx_facts t
  refine ⟨t, flush1_3 t, ?_⟩
  rw [mem_tile]
  intro a
  match a with
  | ⟨0, _⟩ => show win1_3.index t (0 : Fin 4) * 1 ≤ (i 0).val ∧ (i 0).val < win1_3.index t (0 : Fin 4) * 1 + 1
              simp only [q0]; omega
  | ⟨1, _⟩ => show win1_3.index t (1 : Fin 4) * 256 ≤ (i 1).val ∧ (i 1).val < win1_3.index t (1 : Fin 4) * 256 + 256
              simp only [q1]; omega
  | ⟨2, _⟩ => show win1_3.index t (2 : Fin 4) * 128 ≤ (i 2).val ∧ (i 2).val < win1_3.index t (2 : Fin 4) * 128 + 128
              simp only [q2]; omega
  | ⟨3, _⟩ => show win1_3.index t (3 : Fin 4) * 64 ≤ (i 3).val ∧ (i 3).val < win1_3.index t (3 : Fin 4) * 64 + 64
              omega

/-- THE RESULT ARRAY after the region: the three entry arrays spread over the edges. -/
theorem edge_final (c : Dev nD) :
    (dat1 V c).arrAt 3 cfg1.N = spread (V c main_v2_1) (V c main_v2_0) (V c main_v2_2) :=
  (dat1 V c).arrAt_eq_of_cover 3 _ (fun t _ => edge_flushed V c t) tiles_cover

end Cert.KernelIdeal.BcastValue

end
-- ==== Proof.KernelValue.lean ====
/-
  The idealized kernel's result array after the whole program: the specification's edge tensor of the arguments.

  Walk the boundary contents back. After the broadcast region the result array is its three input arrays spread over
  the edges; those three are the projection region's results: every node's projection by the second weight matrix
  (rows), by the first (columns), and the projected node sum plus the bias row; the projection region found the
  arguments as launched and the bias row as the bias column reshaped to a vector and then to a row, which at
  (0, o) is the column at (o, 0).
-/
import proofs.«115965_j41583873360239_1_alg».proof.Proof.KernelRun
import proofs.«115965_j41583873360239_1_alg».proof.Proof.ProjValue
import proofs.«115965_j41583873360239_1_alg».proof.Proof.BcastValue
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Idealize.ShloMosaic.StableHlo Cert.EdgeSpec
open Idealize.ShloMosaic.Pipeline (Dat)

variable (m : (ℓ : Loc nD τ sig) → Buf (Elt Ideal) ℓ) (ρ : Dev nD → PrngReg)

/-! ## What the projection region finds -/

theorem entry_x (c : Dev nD) : V1 m ρ c main_arg0 = m ((c : Thread nD τ).loc main_arg0) := by
  show StableHlo.after hostOps0 (W0 m ρ c) (Proc.devRef .tc main_arg0) = _
  after_results <;> rfl
theorem entry_w0 (c : Dev nD) : V1 m ρ c main_arg2 = m ((c : Thread nD τ).loc main_arg2) := by
  show StableHlo.after hostOps0 (W0 m ρ c) (Proc.devRef .tc main_arg2) = _
  after_results <;> rfl
theorem entry_w1 (c : Dev nD) : V1 m ρ c main_arg3 = m ((c : Thread nD τ).loc main_arg3) := by
  show StableHlo.after hostOps0 (W0 m ρ c) (Proc.devRef .tc main_arg3) = _
  after_results <;> rfl
theorem entry_w2 (c : Dev nD) : V1 m ρ c main_arg4 = m ((c : Thread nD τ).loc main_arg4) := by
  show StableHlo.after hostOps0 (W0 m ρ c) (Proc.devRef .tc main_arg4) = _
  after_results <;> rfl

/-- The bias row: the bias column reshaped to a vector, then to a row. -/
theorem entry_brow (c : Dev nD) :
    V1 m ρ c main_v1 = shapeCast S1x64 (shapeCast S64 (m ((c : Thread nD τ).loc main_arg5)) shapeCasts_S64x1_S64) shapeCasts_S64_S1x64 := by
  show StableHlo.after hostOps0 (W0 m ρ c) (Proc.devRef .tc main_v1) = _
  after_results <;> rfl

/-- The row at (0, o) is the column at (o, 0). -/
theorem brow_apply (bias : S64x1.Idx → EReal) (o : Fin 64) :
    shapeCast S1x64 (shapeCast S64 bias shapeCasts_S64x1_S64) shapeCasts_S64_S1x64 (ix2 (0 : Fin 1) o) = bias (ix2 o (0 : Fin 1)) := by
  refine (shapeCast_a_1a_apply _ shapeCasts_S64_S1x64 0 o).trans ?_
  exact shapeCast_apply bias shapeCasts_S64x1_S64 (ix1 o) (ix2 o (0 : Fin 1)) (by
    rw [Shape.rowMajor_val_two, Shape.rowMajor_val_one]
    show o.val * 1 + 0 = o.val
    omega)

/-! ## The boundary contents, walked back -/

theorem cols_after (c : Dev nD) :
    V2 m ρ c main_v2_0 = nodeProj (m ((c : Thread nD τ).loc main_arg0)) (m ((c : Thread nD τ).loc main_arg2)) := by
  refine (W2_arr m ρ c 5).trans ?_
  rw [ProjValue.cols_final (V1 m ρ) c, entry_x, entry_w0]

theorem rows_after (c : Dev nD) :
    V2 m ρ c main_v2_1 = nodeProj (m ((c : Thread nD τ).loc main_arg0)) (m ((c : Thread nD τ).loc main_arg3)) := by
  refine (W2_arr m ρ c 6).trans ?_
  rw [ProjValue.rows_final (V1 m ρ) c, entry_x, entry_w1]

theorem sums_after (c : Dev nD) :
    V2 m ρ c main_v2_2 = sumRow (m ((c : Thread nD τ).loc main_arg0)) (m ((c : Thread nD τ).loc main_arg4))
      (shapeCast S1x64 (shapeCast S64 (m ((c : Thread nD τ).loc main_arg5)) shapeCasts_S64x1_S64) shapeCasts_S64_S1x64) := by
  refine (W2_arr m ρ c 7).trans ?_
  rw [ProjValue.sums_final (V1 m ρ) c, entry_x, entry_w2, entry_brow]

/-- THE RESULT ARRAY at the program's end is the edge tensor of the arguments as launched. -/
theorem result_final (c : Dev nD) :
    W3 m ρ c (Proc.devRef .tc main_v3)
      = edge (m ((c : Thread nD τ).loc main_arg0)) (m ((c : Thread nD τ).loc main_arg2)) (m ((c : Thread nD τ).loc main_arg3))
          (m ((c : Thread nD τ).loc main_arg4)) (m ((c : Thread nD τ).loc main_arg5)) := by
  refine (W3_arr m ρ c 3).trans ?_
  rw [BcastValue.edge_final (V2 m ρ) c, rows_after, cols_after, sums_after]
  exact spread_eq _ _ _ _ _ _ (fun o => brow_apply _ o)

/-- The run, read: the result array ends at the edge tensor of the arguments, which end as launched. -/
theorem run : θ_run defs (onTc (τ := τ) (main (F := Ideal))) ⟨m, fun _ => 0, ρ⟩ (fun r => ∀ c : Dev nD,
      r.2.mem ((c.tc : Thread nD τ).loc main_v3)
        = edge (m ((c : Thread nD τ).loc main_arg0)) (m ((c : Thread nD τ).loc main_arg2)) (m ((c : Thread nD τ).loc main_arg3))
            (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_final m ρ c), (h c).2⟩)
    (RunValue.run_named (F := Ideal) m ρ)

end Cert.KernelIdeal.KernelValue

end
-- ==== Proof.RefValue.lean ====
/-
  The reference's result, read index by index, is the specification's edge tensor.

  Read backwards from the last addition: the result at (b, i, j, o) is ((A + B) + C) + D with A the `w0`-projection
  broadcast along `i` (so read at node `j`), B the `w1`-projection broadcast along `j` (read at node `i`), C the
  projection of the node sum (its zero initial value added on the left), and D the bias column read at `o`.
-/
import proofs.«115965_j41583873360239_1_alg».proof.Proof.Gen.ReferenceIdeal.Read
import proofs.«115965_j41583873360239_1_alg».proof.Proof.EdgeSpec

noncomputable section

open scoped BigOperators

namespace Cert.ReferenceIdeal.RefValue

open Cert.ReferenceIdeal Cert.ReferenceIdeal.Read Idealize.ShloMosaic Idealize.ShloMosaic.ValueIdx Cert.EdgeSpec

/-- The operand indices of the `w0` projection under its two broadcasts: node `j`, channel `k`; weight row `o`. -/
theorem lidx_cols (b : Fin 4) (p q : Fin 1024) (o k : Fin 64) :
    lidx_main_v0 (idx_main_v4 (idx_main_v6 (ix4 b p q o))) k = ix3 b q k :=
  funext fun a => Fin.ext (by match a with | ⟨0, _⟩ => rfl | ⟨1, _⟩ => rfl | ⟨2, _⟩ => rfl)
theorem ridx_cols (b : Fin 4) (p q : Fin 1024) (o k : Fin 64) :
    ridx_main_v0 (idx_main_v4 (idx_main_v6 (ix4 b p q o))) k = ix2 o k :=
  funext fun a => Fin.ext (by match a with | ⟨0, _⟩ => rfl | ⟨1, _⟩ => rfl)
/-- The same for the `w1` projection: node `i`. -/
theorem lidx_rows (b : Fin 4) (p q : Fin 1024) (o k : Fin 64) :
    lidx_main_v1 (idx_main_v5 (idx_main_v7 (ix4 b p q o))) k = ix3 b p k :=
  funext fun a => Fin.ext (by match a with | ⟨0, _⟩ => rfl | ⟨1, _⟩ => rfl | ⟨2, _⟩ => rfl)
theorem ridx_rows (b : Fin 4) (p q : Fin 1024) (o k : Fin 64) :
    ridx_main_v1 (idx_main_v5 (idx_main_v7 (ix4 b p q o))) k = ix2 o k :=
  funext fun a => Fin.ext (by match a with | ⟨0, _⟩ => rfl | ⟨1, _⟩ => rfl)
/-- The projected node sum is read at (b, k) and weight row `o`. -/
theorem lidx_sums (b : Fin 4) (p q : Fin 1024) (o k : Fin 64) :
    lidx_main_v3 (idx_main_v9 (idx_main_v10 (ix4 b p q o))) k = ix2 b k :=
  funext fun a => Fin.ext (by match a with | ⟨0, _⟩ => rfl | ⟨1, _⟩ => rfl)
theorem ridx_sums (b : Fin 4) (p q : Fin 1024) (o k : Fin 64) :
    ridx_main_v3 (idx_main_v9 (idx_main_v10 (ix4 b p q o))) k = ix2 o k :=
  funext fun a => Fin.ext (by match a with | ⟨0, _⟩ => rfl | ⟨1, _⟩ => rfl)
/-- The node sum at (b, k) runs over the nodes `n` of batch `b`. -/
theorem idx_nodes (b : Fin 4) (k : Fin 64) (n : Fin 1024) : idx_main_v2 (ix2 b k) n = ix3 b n k :=
  funext fun a => Fin.ext (by match a with | ⟨0, _⟩ => rfl | ⟨1, _⟩ => rfl | ⟨2, _⟩ => rfl)
/-- The bias, reshaped to a vector and broadcast, is read at row `o` of its one column. -/
theorem idx_bias (b : Fin 4) (p q : Fin 1024) (o : Fin 64) :
    idx_main_v12 (idx_main_v13 (idx_main_v14 (ix4 b p q o))) = ix2 o 0 :=
  funext fun a => Fin.ext (by
    match a with
    | ⟨0, _⟩ => exact Nat.div_one _
    | ⟨1, _⟩ => rfl)

/-- The reference's last stage is the edge tensor of its five operands. -/
theorem result_eq (x0 : (⟨S4x1024x64, .f32⟩ : BufTy).Contents (Elt Ideal)) (x2 x3 x4 : (⟨S64x64, .f32⟩ : BufTy).Contents (Elt Ideal))
    (x5 : (⟨S64x1, .f32⟩ : BufTy).Contents (Elt Ideal)) :
    val_main_v15 (F := Ideal) x0 x2 x3 x4 x5 = edge x0 x2 x3 x4 x5 := by
  funext i
  obtain ⟨b, p, q, o, rfl⟩ : ∃ (b : Fin 4) (p q : Fin 1024) (o : Fin 64), i = ix4 b p q o := ⟨i 0, i 1, i 2, i 3, eq_ix4 i⟩
  rw [val_main_v15_apply, val_main_v11_apply, val_main_v8_apply, val_main_v6_apply, val_main_v4_apply, val_main_v0_apply,
    val_main_v7_apply, val_main_v5_apply, val_main_v1_apply, val_main_v10_apply, val_main_v9_apply, val_main_v3_apply,
    val_main_v14_apply, val_main_v13_apply, val_main_v12_apply]
  simp only [lidx_cols, ridx_cols, lidx_rows, ridx_rows, lidx_sums, ridx_sums, idx_bias, val_main_v2_apply, idx_nodes,
    val_main_cst_apply, Ideal.addf_def, Ideal.ofBits_def, Ideal.ofBits_zero_f32, zero_add]
  exact regroup _ _ _ _

end Cert.ReferenceIdeal.RefValue

end
-- ==== Proof.lean ====
/-
  The certificate of the node-to-edge graph layer: the kernel (two pipelined regions after two host reshapes of the
  bias) against its host reference, over the extended reals.

  Both idealized programs end with the edge tensor `Cert.EdgeSpec.edge` of the argument arrays in their result array:
  at (b, i, j, o) the projection of node `i` by the second weight matrix, of node `j` by the first, of the node sum by
  the third, and the bias at `o`. The kernel adds them as (rows + cols) + (sums + bias), the reference as
  ((cols + rows) + sums) + bias; addition of extended reals is commutative and associative, so the precondition is
  not used. The ideal pass rewrote nothing, so the kernel's idealization is its own text read at the ideal values.
  The frames of the two kernel programs are the generated ones; the reference's frame is its generated run with the
  result dropped.
-/
import proofs.«115965_j41583873360239_1_alg».proof.Defs
import proofs.«115965_j41583873360239_1_alg».proof.Proof.Gen.Kernel
import proofs.«115965_j41583873360239_1_alg».proof.Proof.Gen.Kernel.Skeleton
import proofs.«115965_j41583873360239_1_alg».proof.Proof.Gen.Kernel.Launch
import proofs.«115965_j41583873360239_1_alg».proof.Proof.Gen.Kernel.Points
import proofs.«115965_j41583873360239_1_alg».proof.Proof.Gen.Kernel.Frame
import proofs.«115965_j41583873360239_1_alg».proof.Proof.Gen.KernelIdeal
import proofs.«115965_j41583873360239_1_alg».proof.Proof.Gen.KernelIdeal.Skeleton
import proofs.«115965_j41583873360239_1_alg».proof.Proof.Gen.KernelIdeal.Launch
import proofs.«115965_j41583873360239_1_alg».proof.Proof.Gen.KernelIdeal.Points
import proofs.«115965_j41583873360239_1_alg».proof.Proof.Gen.KernelIdeal.Frame
import proofs.«115965_j41583873360239_1_alg».proof.Proof.Gen.ReferenceIdeal
import proofs.«115965_j41583873360239_1_alg».proof.Proof.Gen.Pre_finite_inputs
import proofs.«115965_j41583873360239_1_alg».proof.Proof.Gen.ReferenceIdeal.Run
import proofs.«115965_j41583873360239_1_alg».proof.Proof.Gen.ReferenceIdeal.Read
import proofs.«115965_j41583873360239_1_alg».proof.Proof.KernelValue
import proofs.«115965_j41583873360239_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the edge tensor of those arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq,
    (hagree c).1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
